-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel

variable [Facts]

def fn {F : FTy → Type} [FloatOps F] (main_arg0 : FVec F S64x1024x256 .f32) (main_arg1 : FVec F S64x1024x256 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S64x1024x256 .f32 := Host.absf main_arg1
  let main_cst_0 : FVec F S_ .f32 := constant S_ .f32 0x7F800000#32
  let main_v5 : FVec F S64x1024x256 .f32 := broadcastInDim S64x1024x256 ![] bcast_S_S64x1024x256 main_cst_0
  let main_v6 : IVec S64x1024x256 1 := cmpf .olt main_v4 main_v5
  let main_c_1 : IVec S_ 1 := constantI S_ 1 1#1
  let main_v7 : IVec S_ 1 := (fun x v => Host.reduce IntOp.andi x v reducesTo_S64x1024x256_S_d0_1_2 h_S_) main_v6 main_c_1
  let main_v8 : IVec S_ 1 := andi main_v3 main_v7
  main_v8
-- ==== Kernel.lean ====
abbrev S64x1024x256 : Shape := ⟨3, ![64, 1024, 256]⟩
abbrev S64x1024x1024 : Shape := ⟨3, ![64, 1024, 1024]⟩
abbrev S1x1024x256 : Shape := ⟨3, ![1, 1024, 256]⟩
abbrev S1x1024x1024 : Shape := ⟨3, ![1, 1024, 1024]⟩
abbrev S1024x256 : Shape := ⟨2, ![1024, 256]⟩
abbrev S1024 : Shape := ⟨1, ![1024]⟩
abbrev S1024x1 : Shape := ⟨2, ![1024, 1]⟩
abbrev S256x1024 : Shape := ⟨2, ![256, 1024]⟩
abbrev S1024x1024 : Shape := ⟨2, ![1024, 1024]⟩
abbrev S1x1024 : Shape := ⟨2, ![1, 1024]⟩
abbrev S1 : Shape := ⟨1, ![1]⟩
abbrev S1x1 : Shape := ⟨2, ![1, 1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S64x1024x256, .f32⟩
  | .hbm, ⟨1, _⟩ => ⟨S64x1024x256, .f32⟩
  | .hbm, ⟨2, _⟩ => ⟨S64x1024x1024, .f32⟩
  | .hbm, ⟨3, _⟩ => ⟨S64x1024x1024, .i32⟩
  | .hbm, ⟨4, _⟩ => ⟨S_, .i32⟩
  | .hbm, ⟨5, _⟩ => ⟨S64x1024x1024, .i32⟩
  | .hbm, ⟨6, _⟩ => ⟨S64x1024x1024, .i1⟩
  | .hbm, ⟨7, _⟩ => ⟨S64x1024x1024, .i1⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .i32⟩
  | .local _ .vmem, ⟨7, _⟩ => ⟨S1x1024x1024, .i32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x256_S1024 : S1024x256.Reduces [1] S1024
  shapeCasts_S1024_S1024x1 : S1024.ShapeCasts S1024x1
  bitsLt_bf16_f32 : FTy.bits .bf16 < FTy.bits .f32
  transposes_S1024x256_p1_0_S256x1024 : S1024x256.Transposes [1, 0] S256x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  reduces_S1024x1024_S1024 : S1024x1024.Reduces [1] S1024
  reduces_S1024x1_S1 : S1024x1.Reduces [0] S1
  shapeCasts_S1_S1x1 : S1.ShapeCasts S1x1
  broadcasts_S1x1_S1024x1024 : S1x1.Broadcasts S1024x1024
  natLt_1_32 : 1 < 32
  bcast_S_S64x1024x1024 : S_.BroadcastsInDim S64x1024x1024 (![] : Fin 0 → Fin S64x1024x1024.rank)
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S64x1024x256.size a
  hwx0_0 : ∀ i : grid0.Coords, EltTy.bits .f32 = 32 ∨ (Rect.block (s := S64x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S64x1024x256.size a
  hwx0_1 : ∀ i : grid0.Coords, EltTy.bits .f32 = 32 ∨ (Rect.block (s := S64x1024x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S64x1024x1024.size a
  hwx0_2 : ∀ i : grid0.Coords, EltTy.bits .f32 = 32 ∨ (Rect.block (s := S64x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S64x1024x1024.size a
  hwx0_3 : ∀ i : grid0.Coords, EltTy.bits .i32 = 32 ∨ (Rect.block (s := S64x1024x1024) S1x1024x1024.size (cc0_transform_3 i) (hinb0_3 i)).WholeWords (EltTy.packing .i32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S_ : Shape := ⟨0, ![]⟩
abbrev S64x1024 : Shape := ⟨2, ![64, 1024]⟩
abbrev S64x1024x1 : Shape := ⟨3, ![64, 1024, 1]⟩
abbrev S64x1x1024 : Shape := ⟨3, ![64, 1, 1024]⟩
abbrev S64x1024x1024 : Shape := ⟨3, ![64, 1024, 1024]⟩
abbrev S64 : Shape := ⟨1, ![64]⟩
abbrev S64x1x1 : Shape := ⟨3, ![64, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x1024x256, .f32⟩
  | .hbm, ⟨2, _⟩ => ⟨S64x1024x256, .f32⟩
  | .hbm, ⟨3, _⟩ => ⟨S_, .f32⟩
  | .hbm, ⟨4, _⟩ => ⟨S64x1024, .f32⟩
  | .hbm, ⟨5, _⟩ => ⟨S64x1024x1, .f32⟩
  | .hbm, ⟨6, _⟩ => ⟨S64x1024x256, .f32⟩
  | .hbm, ⟨7, _⟩ => ⟨S_, .f32⟩
  | .hbm, ⟨8, _⟩ => ⟨S64x1024, .f32⟩
  | .hbm, ⟨9, _⟩ => ⟨S64x1024x1, .f32⟩
  | .hbm, ⟨10, _⟩ => ⟨S64x1x1024, .f32⟩
  | .hbm, ⟨11, _⟩ => ⟨S64x1024x1024, .f32⟩
  | .hbm, ⟨12, _⟩ => ⟨S64x1024x1024, .f32⟩
  | .hbm, ⟨13, _⟩ => ⟨S64x1024x1024, .f32⟩
  | .hbm, ⟨14, _⟩ => ⟨S64x1024x1024, .f32⟩
  | .hbm, ⟨15, _⟩ => ⟨S_, .f32⟩
  | .hbm, ⟨16, _⟩ => ⟨S64x1024x1024, .f32⟩
  | .hbm, ⟨17, _⟩ => ⟨S64x1024x1024, .f32⟩
  | .hbm, ⟨18, _⟩ => ⟨S64x1024x1024, .f32⟩
  | .hbm, ⟨19, _⟩ => ⟨S_, .f32⟩
  | .hbm, ⟨20, _⟩ => ⟨S_, .f32⟩
  | .hbm, ⟨21, _⟩ => ⟨S64x1024x1024, .f32⟩
  | .hbm, ⟨22, _⟩ => ⟨S64x1024x1024, .f32⟩
  | .hbm, ⟨23, _⟩ => ⟨S64x1024x1024, .f32⟩
  | .hbm, ⟨24, _⟩ => ⟨S_, .f32⟩
  | .hbm, ⟨25, _⟩ => ⟨S64, .f32⟩
  | .hbm, ⟨26, _⟩ => ⟨S64x1x1, .f32⟩
  | .hbm, ⟨27, _⟩ => ⟨S_, .f32⟩
  | .hbm, ⟨28, _⟩ => ⟨S64x1x1, .f32⟩
  | .hbm, ⟨29, _⟩ => ⟨S64x1x1, .f32⟩
  | .hbm, ⟨30, _⟩ => ⟨S64x1024x1024, .f32⟩
  | .hbm, ⟨31, _⟩ => ⟨S64x1024x1024, .i1⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S64x1024x256_S64x1024_d2 : S64x1024x256.ReducesTo [2] S64x1024
  h_S_ : 0 < S_.numel
  bcast_S64x1024_S64x1024x1_0_1 : S64x1024.BroadcastsInDim S64x1024x1 (![0, 1] : Fin 2 → Fin S64x1024x1.rank)
  transposes_S64x1024x1_S64x1x1024_0_2_1 : S64x1024x1.Transposes [0, 2, 1] S64x1x1024
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  bcast_S_S64x1024x1024 : S_.BroadcastsInDim S64x1024x1024 (![] : Fin 0 → Fin S64x1024x1024.rank)
  reducesTo_S64x1024x1024_S64_d1_2 : S64x1024x1024.ReducesTo [1, 2] S64
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S64x1x1_S64x1024x1024_0_1_2 : S64x1x1.BroadcastsInDim S64x1024x1024 (![0, 1, 2] : Fin 3 → Fin S64x1024x1024.rank)
  dot_S64x1024x256_S64x1024x256_S64x1024x1024_2_2_1_1_0_0_wf : DotDims.WF S64x1024x256 S64x1024x256 S64x1024x1024 [2] [2] [1] [1] [0] [0]

variable [Facts₀]

def dot_S64x1024x256_S64x1024x256_S64x1024x1024_2_2_1_1_0_0 : DotDims S64x1024x256 S64x1024x256 S64x1024x1024 where
  lhsContracting := [2]
  rhsContracting := [2]
  lhsNonContracting := [1]
  rhsNonContracting := [1]
  lhsBatch := [0]
  rhsBatch := [0]
  wf := dot_S64x1024x256_S64x1024x256_S64x1024x1024_2_2_1_1_0_0_wf

class Facts : Prop extends Facts₀ where

variable [Facts]
-- ==== Proof.DistSpec.lean ====
/-
  Pairwise distances between two families of points, their mean, and the pairs no farther apart than the mean.

  A batch holds 1024 points x i and 1024 points y j of 256 coordinates each. The squared distance between x i and y j
  is expanded as |x i|² + |y j|² − 2 ⟨x i, y j⟩, floored at a small positive constant ε, and its square root is the
  distance d (i, j). The mean of the 1024 · 1024 distances is their total times 2⁻²⁰, and a pair is marked when its
  distance is at most the mean. Everything is on the extended reals; ε, 2 and 2⁻²⁰ are kept as the f32 words that
  denote them, and only two facts about constants are used: the word of 2²⁰ denotes 2²⁰ and the word of 2⁻²⁰ denotes
  2⁻²⁰, so that dividing a total by the first is multiplying it by the second, at the infinities too.
-/
import Idealize.ShloMosaic.PureOps.Ideal
import Idealize.ShloMosaic.Lib.ValueIdx

noncomputable section

open scoped BigOperators

namespace Cert.PairDist

open Idealize.ShloMosaic Idealize.ShloMosaic.ValueIdx

/-- The squared norm of a point. -/
def sqn (u : Fin 256 → EReal) : EReal := ∑ k : Fin 256, u k * u k

/-- The inner product of two points. -/
def dotp (u v : Fin 256 → EReal) : EReal := ∑ k : Fin 256, u k * v k

/-- The distance between point i of the first family and point j of the second: the square root of
    |x i|² + |y j|² − 2 ⟨x i, y j⟩ floored at ε. -/
def distOf (xr yr : Fin 1024 → Fin 256 → EReal) (i j : Fin 1024) : EReal :=
  Ideal.sqrt (max (Ideal.ofBits .f32 0x2B8CBCCC#32)
    ((sqn (xr i) + sqn (yr j)) - Ideal.ofBits .f32 0x40000000#32 * dotp (xr i) (yr j)))

/-- The total of all distances, row by row. -/
def totalOf (xr yr : Fin 1024 → Fin 256 → EReal) : EReal := ∑ i : Fin 1024, ∑ j : Fin 1024, distOf xr yr i j

/-- Their mean: the total times 2⁻²⁰. -/
def meanOf (xr yr : Fin 1024 → Fin 256 → EReal) : EReal := totalOf xr yr * Ideal.ofBits .f32 0x35800000#32

/-- Whether the pair (i, j) is no farther apart than the mean. -/
def nearOf (xr yr : Fin 1024 → Fin 256 → EReal) (i j : Fin 1024) : BitVec 1 :=
  Ideal.cmp .ole (distOf xr yr i j) (meanOf xr yr)

/-- The points of batch b of an array of B batches, as rows. -/
def rowsOf {B : ℕ} (X : (⟨3, ![B, 1024, 256]⟩ : Shape).Idx → EReal) (b : Fin B) : Fin 1024 → Fin 256 → EReal :=
  fun i k => X (ix3 b i k)

/-- The array of all distances: entry (b, i, j) is the distance between points i and j of batch b. -/
def distArr (X Y : (⟨3, ![64, 1024, 256]⟩ : Shape).Idx → EReal) : (⟨3, ![64, 1024, 1024]⟩ : Shape).Idx → EReal :=
  fun i => distOf (rowsOf X (i 0)) (rowsOf Y (i 0)) (i 1) (i 2)

/-- The array of marks: entry (b, i, j) says whether that distance is at most batch b's mean. -/
def nearArr (X Y : (⟨3, ![64, 1024, 256]⟩ : Shape).Idx → EReal) : (⟨3, ![64, 1024, 1024]⟩ : Shape).Idx → BitVec 1 :=
  fun i => nearOf (rowsOf X (i 0)) (rowsOf Y (i 0)) (i 1) (i 2)

/-- The f32 word 0x49800000 denotes 2²⁰. -/
theorem ofBits_two_pow_20 : Ideal.ofBits .f32 0x49800000#32 = ((1048576 : ℝ) : EReal) := by
  simp [Ideal.ofBits, Ideal.ieee, -EReal.coe_mul]; norm_num

/-- The f32 word 0x35800000 denotes 2⁻²⁰. -/
theorem ofBits_two_pow_neg_20 : Ideal.ofBits .f32 0x35800000#32 = ((1 / 1048576 : ℝ) : EReal) := by
  simp [Ideal.ofBits, Ideal.ieee, -EReal.coe_mul]; norm_num

/-- Dividing by 2²⁰ is multiplying by 2⁻²⁰, on every extended real. -/
theorem div_two_pow_20 (T : EReal) :
    Ideal.div T (Ideal.ofBits .f32 0x49800000#32) = T * Ideal.ofBits .f32 0x35800000#32 := by
  rw [ofBits_two_pow_20, ofBits_two_pow_neg_20]
  exact Ideal.div_coe (by norm_num) T

end Cert.PairDist

end
-- ==== Proof.LibPlaneSum.lean ====
/-
  Sums over a plane of an array, and one entry spread over a matrix, read at an entry.

  The host sums an [a, b, c] array over its last two axes in one reduction: the result's entry r is the initial
  value plus the sum of the array's entries (r, p, q) over every p < b and q < c. The entries that reduce to r are
  those whose first coordinate is r, and these are the pairs (p, q), so the sum over them is the double sum.

  A vector program reaches the same total in two steps, a sum along each row kept as an [a, 1] column and then a
  sum down that column into a vector of length one; the second step is read here: its one entry is the sum over
  i < a of the column's entry (i, 0). A [1, 1] matrix spread over an [a, b] matrix by a broadcast reads its one
  entry everywhere.

  All sums are on the extended reals, where addition is commutative and associative, so no order is left in them.
-/
import Idealize.ShloMosaic.Lib.ValueIdx
import Idealize.ShloMosaic.Lib.Pipeline.Value
import Idealize.ShloMosaic.PureOps.Ideal.Laws

noncomputable section

open scoped BigOperators

namespace Idealize.ShloMosaic.PlaneSum

open Idealize.ShloMosaic Idealize.ShloMosaic.ValueIdx

/-- The indices of an [a, b, c] array whose first coordinate is r are the pairs (p, q) of the other two coordinates:
    a sum over them is the double sum over p and q. -/
theorem sum_filter_first {M : Type*} [AddCommMonoid M] {a b c : ℕ} (x : (⟨3, ![a, b, c]⟩ : Shape).Idx → M) (r : Fin a) :
    ∑ i ∈ Finset.univ.filter (fun i : (⟨3, ![a, b, c]⟩ : Shape).Idx => (i 0).val = r.val), x i
      = ∑ p : Fin b, ∑ q : Fin c, x (ix3 r p q) := by
  rw [← Finset.sum_product']
  refine Finset.sum_bij' (fun i _ => ((i 1, i 2) : Fin b × Fin c)) (fun pq _ => ix3 r pq.1 pq.2) ?_ ?_ ?_ ?_ ?_
  · intro i _
    exact Finset.mem_product.mpr ⟨Finset.mem_univ _, Finset.mem_univ _⟩
  · intro pq _
    exact Finset.mem_filter.mpr ⟨Finset.mem_univ _, rfl⟩
  · intro i hi
    have h0 : i 0 = r := Fin.ext (Finset.mem_filter.mp hi).2
    subst h0
    exact (eq_ix3 i).symm
  · intro pq _
    rfl
  · intro i hi
    have h0 : i 0 = r := Fin.ext (Finset.mem_filter.mp hi).2
    subst h0
    exact congrArg x (eq_ix3 i)

/-- The host's sum of an [a, b, c] array over its last two axes, at entry r: the initial value plus the double sum
    over p < b and q < c of the array's entry (r, p, q). -/
theorem hostReduceAdd_plane_apply {a b c : ℕ} (h' : (⟨3, ![a, b, c]⟩ : Shape).ReducesTo [1, 2] ⟨1, ![a]⟩)
    (x : (⟨3, ![a, b, c]⟩ : Shape).Idx → EReal) (init : EReal) (r : Fin a) :
    Ideal.hostReduceAdd h' x init (ix1 r) = init + ∑ p : Fin b, ∑ q : Fin c, x (ix3 r p q) := by
  unfold Ideal.hostReduceAdd
  refine congrArg (init + ·) ?_
  rw [← sum_filter_first x r]
  refine Finset.sum_congr (Finset.filter_congr fun i _ => ?_) fun _ _ => rfl
  have e : ((h'.drop i 0 : Fin a) : ℕ) = ((i 0 : Fin a) : ℕ) := rfl
  constructor
  · intro h
    rw [← e, h]
    rfl
  · intro h0
    funext d
    match d with
    | ⟨0, _⟩ => exact Fin.ext (e.trans h0)

/-- A sum down an [a, 1] column into a vector of length one, on the extended reals: the one entry is the sum over
    i < a of the column's entry (i, 0). The accumulator word is the sum's neutral element. -/
theorem columnSum_apply {a : ℕ} {φ : FTy} (x : FVec Ideal (⟨2, ![a, 1]⟩ : Shape) φ) (acc : BitVec φ.bits)
    (h : (⟨2, ![a, 1]⟩ : Shape).Reduces [0] ⟨1, ![1]⟩) (hφ : FKind.Formats φ) (hacc : acc = FKind.add.neutral φ hφ) :
    multiReduction .add [0] ⟨1, ![1]⟩ x acc h hφ hacc (ix1 (0 : Fin 1)) = ∑ i : Fin a, x (ix2 i (0 : Fin 1)) := by
  refine (Ideal.multiReduction_add_single x acc h hφ hacc (ix1 (0 : Fin 1))).trans ?_
  refine Finset.sum_congr rfl fun k _ => congrArg x (funext fun c => Fin.ext ?_)
  match c with
  | ⟨0, _⟩ => rfl
  | ⟨1, _⟩ => rfl

/-- The same column sum as an f32 program prints it: the accumulator is the zero word, and the proof it carries that
    the word is the sum's neutral element is a proof that zero is zero. -/
theorem columnSum_zero_f32_apply {a : ℕ} (x : FVec Ideal (⟨2, ![a, 1]⟩ : Shape) .f32)
    (h : (⟨2, ![a, 1]⟩ : Shape).Reduces [0] ⟨1, ![1]⟩) (hφ : FKind.Formats .f32)
    (hacc : (0x00000000#32 : BitVec 32) = 0x00000000#32) :
    multiReduction .add [0] ⟨1, ![1]⟩ x 0x00000000#32 h hφ hacc (ix1 (0 : Fin 1)) = ∑ i : Fin a, x (ix2 i (0 : Fin 1)) :=
  columnSum_apply x 0x00000000#32 h hφ hacc

/-- A [1, 1] matrix spread over an [a, b] matrix by a broadcast: every entry reads the one entry (0, 0). -/
theorem broadcastTo_11_ab_apply {α : Type} {a b : ℕ} (w : (⟨2, ![1, 1]⟩ : Shape).Idx → α)
    (h : (⟨2, ![1, 1]⟩ : Shape).Broadcasts ⟨2, ![a, b]⟩) (i : Fin a) (j : Fin b) :
    broadcastTo ⟨2, ![a, b]⟩ w h (ix2 i j) = w (ix2 (0 : Fin 1) (0 : Fin 1)) := by
  refine broadcastTo_apply w h (ix2 i j) (ix2 (0 : Fin 1) (0 : Fin 1)) fun ax => ?_
  match ax with
  | ⟨0, _⟩ => rfl
  | ⟨1, _⟩ => rfl

end Idealize.ShloMosaic.PlaneSum

end
-- ==== Proof.LibColumnForms.lean ====
/-
  A vector kept as a one-column matrix, read at an entry.

  A row-wise reduction that keeps its axis (a sum over the columns of an [a, n] block, kept as [a, 1]) is spelt by a
  vector program in two steps: the lane sum into a vector of length a, then a shape cast that stands the vector up
  as a column. The column is then spread across the b columns of an [a, b] block by a broadcast; its transpose, a
  [1, a] row, is spread down the rows. Here each step is read at an entry given by its coordinates:

    the column of a vector              [a]    → [a, 1]   entry (i, 0) is the vector's entry i;
    a column spread across the columns  [a, 1] → [a, b]   entry (i, j) is the column's entry (i, 0);
    a lane sum over the second axis     [a, n] → [a]      entry i is the sum over k < n of the block's entry (i, k),
                                                          on the extended reals, where the zero accumulator is the
                                                          sum's neutral element and leaves no trace.

  (The transpose of a column into a row and the spreading of a row down the rows are in the library's layout file.)
-/
import Idealize.ShloMosaic.Lib.ValueIdx
import Idealize.ShloMosaic.Lib.Pipeline.Value
import Idealize.ShloMosaic.PureOps.Ideal.Laws

noncomputable section

open scoped BigOperators

namespace Idealize.ShloMosaic.ColumnForms

open Idealize.ShloMosaic Idealize.ShloMosaic.ValueIdx

variable {α : Type}

/-- A vector stood up as a one-column matrix by a shape cast: entry (i, 0) is the vector's entry i (the two indices
    have the same row-major position, i · 1 + 0 = i). -/
theorem shapeCast_a_a1_apply {a : ℕ} (v : (⟨1, ![a]⟩ : Shape).Idx → α)
    (h : (⟨1, ![a]⟩ : Shape).ShapeCasts ⟨2, ![a, 1]⟩) (i : Fin a) :
    shapeCast ⟨2, ![a, 1]⟩ v h (ix2 i (0 : Fin 1)) = v (ix1 i) := by
  refine shapeCast_apply v h (ix2 i (0 : Fin 1)) (ix1 i) ?_
  rw [Shape.rowMajor_val_one, Shape.rowMajor_val_two]
  show i.val = i.val * 1 + 0
  omega

/-- A one-column matrix spread across b columns by a broadcast: entry (i, j) is the column's entry (i, 0). -/
theorem broadcastTo_a1_ab_apply {a b : ℕ} (w : (⟨2, ![a, 1]⟩ : Shape).Idx → α)
    (h : (⟨2, ![a, 1]⟩ : Shape).Broadcasts ⟨2, ![a, b]⟩) (i : Fin a) (j : Fin b) :
    broadcastTo ⟨2, ![a, b]⟩ w h (ix2 i j) = w (ix2 i (0 : Fin 1)) := by
  refine broadcastTo_apply w h (ix2 i j) (ix2 i (0 : Fin 1)) fun ax => ?_
  match ax with
  | ⟨0, _⟩ =>
    show i.val = if a = 1 then 0 else i.val
    split
    · have := i.isLt; omega
    · rfl
  | ⟨1, _⟩ => rfl

/-- A lane sum of an [a, n] block over its second axis, on the extended reals: entry i is the sum over the n columns of
    the block's row i. The accumulator word is the sum's neutral element, whatever proof of that the program carries. -/
theorem laneSum_apply {a n : ℕ} {φ : FTy} (x : FVec Ideal (⟨2, ![a, n]⟩ : Shape) φ) (acc : BitVec φ.bits)
    (h : (⟨2, ![a, n]⟩ : Shape).Reduces [1] ⟨1, ![a]⟩) (hφ : FKind.Formats φ) (hacc : acc = FKind.add.neutral φ hφ) (i : Fin a) :
    multiReduction .add [1] ⟨1, ![a]⟩ x acc h hφ hacc (ix1 i) = ∑ k : Fin n, x (ix2 i k) := by
  refine (Ideal.multiReduction_add_single x acc h hφ hacc (ix1 i)).trans ?_
  refine Finset.sum_congr rfl fun k _ => congrArg x (funext fun c => Fin.ext ?_)
  match c with
  | ⟨0, _⟩ => rfl
  | ⟨1, _⟩ => rfl

/-- The same lane sum as an f32 program prints it: the accumulator is the zero word, and the proof it carries that the
    word is the sum's neutral element is a proof that zero is zero. -/
theorem laneSum_zero_f32_apply {a n : ℕ} (x : FVec Ideal (⟨2, ![a, n]⟩ : Shape) .f32)
    (h : (⟨2, ![a, n]⟩ : Shape).Reduces [1] ⟨1, ![a]⟩) (hφ : FKind.Formats .f32)
    (hacc : (0x00000000#32 : BitVec 32) = 0x00000000#32) (i : Fin a) :
    multiReduction .add [1] ⟨1, ![a]⟩ x 0x00000000#32 h hφ hacc (ix1 i) = ∑ k : Fin n, x (ix2 i k) :=
  laneSum_apply x 0x00000000#32 h hφ hacc i

end Idealize.ShloMosaic.ColumnForms

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«159108_j25847113187909_2_alg».proof.Proof.LibContract
import proofs.«159108_j25847113187909_2_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.KernelPay.lean ====
/-
  What the kernel's body computes from one batch's two blocks of points.

  The body holds the 1024 points x i and y j of one batch as [1, 1024, 256] blocks. The squared norms are lane sums
  of the squared coordinates, stood up as columns; the column of |x i|² is spread across the columns of a
  [1024, 1024] matrix, the column of |y j|² is turned into a row and spread down the rows; the inner products
  ⟨x i, y j⟩ are one matrix product of the x block with the transposed y block into a zero accumulator (the passage
  through a narrower float format is the identity on the extended reals). The distance matrix is the square root of
  |x i|² + |y j|² − 2 ⟨x i, y j⟩ floored at ε. Its total is taken row by row and then down the column of row sums,
  multiplied by 2⁻²⁰, spread over the matrix and compared with each distance; the mark is widened to a 32-bit word.
-/
import proofs.«159108_j25847113187909_2_alg».proof.Proof.Gen.KernelIdeal.Skeleton
import proofs.«159108_j25847113187909_2_alg».proof.Proof.DistSpec
import proofs.«159108_j25847113187909_2_alg».proof.Proof.LibPlaneSum
import proofs.«159108_j25847113187909_2_alg».proof.Proof.LibColumnForms
import proofs.«159108_j25847113187909_2_alg».proof.Proof.LibDenseVec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen
open Idealize.ShloMosaic Idealize.ShloMosaic.ValueIdx Cert.PairDist

/-- A square root taken entry by entry. -/
theorem sqrt_apply {s : Shape} {φ : FTy} (a : FVec Ideal s φ) (i : s.Idx) : sqrt a i = Ideal.sqrt (a i) := rfl

/-- A block with its unit axis cast away: row i, coordinate k of the batch's points. -/
theorem rows_apply (x : Vec Ideal S1x1024x256 .f32) (i : Fin 1024) (k : Fin 256) :
    shapeCast S1024x256 x shapeCasts_S1x1024x256_S1024x256 (ix2 i k) = rowsOf x 0 i k :=
  shapeCast_1ab_ab_apply x shapeCasts_S1x1024x256_S1024x256 i k

/-- The column of squared norms: entry (i, 0) is |x i|². -/
theorem sqcol_apply (x : Vec Ideal S1x1024x256 .f32) (i : Fin 1024) :
    shapeCast S1024x1 (multiReduction (F := Ideal) .add [1] S1024
        (mulf (shapeCast S1024x256 x shapeCasts_S1x1024x256_S1024x256) (shapeCast S1024x256 x shapeCasts_S1x1024x256_S1024x256))
        0x00000000#32 reduces_S1024x256_S1024 (.inl rfl) rfl) shapeCasts_S1024_S1024x1 (ix2 i (0 : Fin 1))
      = sqn (rowsOf x 0 i) := by
  rw [ColumnForms.shapeCast_a_a1_apply, ColumnForms.laneSum_zero_f32_apply]
  unfold sqn
  refine Finset.sum_congr rfl fun k _ => ?_
  rw [mulf_apply, rows_apply]

/-- The dimension record of the body's product contracts the x block's coordinate axis with the transposed y block's. -/
theorem plain_dot : DenseVec.Plain dot_S1024x256_S256x1024_S1024x1024_1_0_0_1_n_n where
  rank := rfl
  size := fun _ => rfl
  lhs := rfl
  rhs := rfl
  row := fun j q => by
    unfold DotDims.lhsIdx
    rw [dif_neg (show ¬(0 : Fin S1024x256.rank) ∈ dot_S1024x256_S256x1024_S1024x1024_1_0_0_1_n_n.lhsBatch by decide),
      dif_pos (show (0 : Fin S1024x256.rank) ∈ dot_S1024x256_S256x1024_S1024x1024_1_0_0_1_n_n.lhsNonContracting by decide)]
    rfl
  col := fun j q => by
    unfold DotDims.rhsIdx
    rw [dif_neg (show ¬(1 : Fin S256x1024.rank) ∈ dot_S1024x256_S256x1024_S1024x1024_1_0_0_1_n_n.rhsBatch by decide),
      dif_pos (show (1 : Fin S256x1024.rank) ∈ dot_S1024x256_S256x1024_S1024x1024_1_0_0_1_n_n.rhsNonContracting by decide)]
    rfl

/-- The matrix of inner products: entry (i, j) is ⟨x i, y j⟩. -/
theorem dots_apply (x0 x1 : Vec Ideal S1x1024x256 .f32) (i j : Fin 1024) :
    matmul (F := Ideal) dot_S1024x256_S256x1024_S1024x1024_1_0_0_1_n_n none
        (truncf (F := Ideal) (φ := .f32) .bf16 (shapeCast S1024x256 x0 shapeCasts_S1x1024x256_S1024x256) bitsLt_bf16_f32)
        (transpose S256x1024 [1, 0] (truncf (F := Ideal) (φ := .f32) .bf16 (shapeCast S1024x256 x1 shapeCasts_S1x1024x256_S1024x256) bitsLt_bf16_f32)
          transposes_S1024x256_p1_0_S256x1024)
        (constant S1024x1024 .f32 0x00000000#32) (ix2 i j)
      = dotp (rowsOf x0 0 i) (rowsOf x1 0 j) := by
  rw [DenseVec.matmul_zero_ix2 plain_dot]
  unfold dotp
  refine Finset.sum_congr rfl fun k _ => ?_
  rw [truncf_apply, rows_apply, transpose_ix2_apply, truncf_apply, rows_apply]

/-- The body's distance matrix at (i, j) is the distance between x i and y j. -/
theorem pay_dist_apply (x0 x1 : Vec Ideal S1x1024x256 .f32) (i j : Fin 1024) :
    k0_pay2 (F := Ideal) x0 x1 (ix2 i j) = distOf (rowsOf x0 0) (rowsOf x1 0) i j := by
  unfold k0_pay2 distOf
  dsimp only
  rw [sqrt_apply, maximumf_apply, broadcast_apply, subf_apply, addf_apply, mulf_apply, broadcast_apply,
    ColumnForms.broadcastTo_a1_ab_apply, broadcastTo_1b_ab_apply, transpose_ix2_apply, sqcol_apply, sqcol_apply, dots_apply]
  rfl

/-- The column of row totals: entry (i, 0) is the sum over j of the distances from x i. -/
theorem rowtot_apply (x0 x1 : Vec Ideal S1x1024x256 .f32) (i : Fin 1024) :
    shapeCast S1024x1 (multiReduction (F := Ideal) .add [1] S1024 (k0_pay2 (F := Ideal) x0 x1) 0x00000000#32 reduces_S1024x1024_S1024 (.inl rfl) rfl)
        shapeCasts_S1024_S1024x1 (ix2 i (0 : Fin 1))
      = ∑ j : Fin 1024, distOf (rowsOf x0 0) (rowsOf x1 0) i j := by
  rw [ColumnForms.shapeCast_a_a1_apply, ColumnForms.laneSum_zero_f32_apply]
  exact Finset.sum_congr rfl fun j _ => pay_dist_apply x0 x1 i j

/-- The body's mark at (i, j), widened to 32 bits: whether the distance between x i and y j is at most the mean. -/
theorem pay_near_apply (x0 x1 : Vec Ideal S1x1024x256 .f32) (i j : Fin 1024) :
    k0_pay4 (F := Ideal) x0 x1 (ix2 i j) = (nearOf (rowsOf x0 0) (rowsOf x1 0) i j).setWidth 32 := by
  unfold k0_pay4 nearOf meanOf totalOf
  dsimp only
  rw [extui_apply, cmpf_apply, pay_dist_apply, PlaneSum.broadcastTo_11_ab_apply, mulf_apply, broadcast_apply,
    ColumnForms.shapeCast_a_a1_apply, PlaneSum.columnSum_zero_f32_apply]
  rw [Finset.sum_congr rfl fun i' _ => rowtot_apply x0 x1 i']
  rfl

/-- What the body stores into the distance block, at (0, i, j): the distance between x i and y j. -/
theorem out_dist_apply (x0 x1 : Vec Ideal S1x1024x256 .f32) (y : S1x1024x1024.Idx) :
    k0_pay3 (F := Ideal) x0 x1 y = distOf (rowsOf x0 0) (rowsOf x1 0) (y 1) (y 2) := by
  obtain ⟨u, p, q, rfl⟩ : ∃ (u : Fin 1) (p q : Fin 1024), y = ix3 u p q := ⟨y 0, y 1, y 2, eq_ix3 y⟩
  unfold k0_pay3
  exact (shapeCast_ab_1ab_apply _ _ u p q).trans (pay_dist_apply x0 x1 p q)

/-- What the body stores into the block of marks, at (0, i, j): the widened mark of the pair (i, j). -/
theorem out_near_apply (x0 x1 : Vec Ideal S1x1024x256 .f32) (y : S1x1024x1024.Idx) :
    k0_pay1 (k0_pay4 (F := Ideal) x0 x1) y = (nearOf (rowsOf x0 0) (rowsOf x1 0) (y 1) (y 2)).setWidth 32 := by
  obtain ⟨u, p, q, rfl⟩ : ∃ (u : Fin 1) (p q : Fin 1024), y = ix3 u p q := ⟨y 0, y 1, y 2, eq_ix3 y⟩
  unfold k0_pay1
  exact (shapeCast_ab_1ab_apply _ _ u p q).trans (pay_near_apply x0 x1 p q)

end Cert.KernelIdeal.Body

end
-- ==== Proof.KernelArrays.lean ====
/-
  From the blocks the kernel writes back to the two whole result arrays.

  Grid point t handles batch t: every window's block at t is the slab (t, ·, ·) of its array. So the two input blocks
  at t are the points of batch t, what the body stores at (0, i, j) lands at entry (t, i, j), and the 64 slabs cover each
  result array. Hence the first result array ends as the array of all distances and the second as the array of all
  marks, each widened to a 32-bit word.
-/
import proofs.«159108_j25847113187909_2_alg».proof.Proof.Gen.KernelIdeal.Frame
import proofs.«159108_j25847113187909_2_alg».proof.Proof.KernelPay
import Idealize.ShloMosaic.Lib.Pipeline.Value
import Idealize.ShloMosaic.Lib.ValueLayout

set_option maxRecDepth 16384

noncomputable section

namespace Cert.KernelIdeal.Arrays

open Cert.KernelIdeal Cert.KernelIdeal.Gen Cert.KernelIdeal.Body
open Idealize.ShloMosaic Idealize.ShloMosaic.TcCoe Idealize.SL.Sem Idealize.ShloMosaic.ValueIdx Cert.PairDist
open Idealize.ShloMosaic.Pipeline (Dat)

variable (m : (ℓ : Loc nD τ sig) → Buf (Elt Ideal) ℓ)

theorem hz : (![0, 0, 0] : Fin 3 → Nat) = fun _ => 0 := funext fun a => by fin_cases a <;> rfl

/-- Every window's block index at grid point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The batch grid point t handles. -/
def batch (t : Fin cfg0.N) : Fin 64 := t.cast N_0

/-- The first input block at t holds the first family's points of batch t. -/
theorem iblk0_rows (c : Dev nD) (t : Fin cfg0.N) :
    rowsOf (iblk m c 0 t : Vec Ideal S1x1024x256 .f32) 0 = rowsOf (V m c main_arg0) (batch t) := by
  funext i k
  unfold rowsOf iblk
  rw [View.read_apply]
  show V m c main_arg0 _ = V m c main_arg0 _
  congr 1
  funext a
  apply Fin.ext
  obtain ⟨e0, e1, e2, -⟩ := idx_facts t
  match a with
  | ⟨0, _⟩ => show win0_0.index t (0 : Fin 3) * 1 + 1 * 0 = t.val; omega
  | ⟨1, _⟩ => show win0_0.index t (1 : Fin 3) * 1024 + 1 * i.val = i.val; omega
  | ⟨2, _⟩ => show win0_0.index t (2 : Fin 3) * 256 + 1 * k.val = k.val; omega

/-- The second input block at t holds the second family's points of batch t. -/
theorem iblk1_rows (c : Dev nD) (t : Fin cfg0.N) :
    rowsOf (iblk m c 1 t : Vec Ideal S1x1024x256 .f32) 0 = rowsOf (V m c main_arg1) (batch t) := by
  funext i k
  unfold rowsOf iblk
  rw [View.read_apply]
  show V m c main_arg1 _ = V m c main_arg1 _
  congr 1
  funext a
  apply Fin.ext
  obtain ⟨-, -, -, e0, e1, e2, -⟩ := idx_facts t
  match a with
  | ⟨0, _⟩ => show win0_1.index t (0 : Fin 3) * 1 + 1 * 0 = t.val; omega
  | ⟨1, _⟩ => show win0_1.index t (1 : Fin 3) * 1024 + 1 * i.val = i.val; omega
  | ⟨2, _⟩ => show win0_1.index t (2 : Fin 3) * 256 + 1 * k.val = k.val; omega

/-- Entry (0, i, j) of the distance block at t sits at entry (t, i, j) of the first result array. -/
theorem emb_dist (t : Fin cfg0.N) (y : S1x1024x1024.Idx) :
    ((cfg0.win 2).blk t).view.emb y = (ix3 (batch t) (y 1) (y 2) : S64x1024x1024.Idx) := by
  funext a
  apply Fin.ext
  obtain ⟨-, -, -, -, -, -, e0, e1, e2, -⟩ := idx_facts t
  have h0 : (y 0).val < 1 := (y 0).isLt
  match a with
  | ⟨0, _⟩ => show win0_2.index t (0 : Fin 3) * 1 + 1 * (y 0).val = t.val; omega
  | ⟨1, _⟩ => show win0_2.index t (1 : Fin 3) * 1024 + 1 * (y 1).val = (y 1).val; omega
  | ⟨2, _⟩ => show win0_2.index t (2 : Fin 3) * 1024 + 1 * (y 2).val = (y 2).val; omega

/-- Entry (0, i, j) of the block of marks at t sits at entry (t, i, j) of the second result array. -/
theorem emb_near (t : Fin cfg0.N) (y : S1x1024x1024.Idx) :
    ((cfg0.win 3).blk t).view.emb y = (ix3 (batch t) (y 1) (y 2) : S64x1024x1024.Idx) := by
  funext a
  apply Fin.ext
  obtain ⟨-, -, -, -, -, -, -, -, -, e0, e1, e2⟩ := idx_facts t
  have h0 : (y 0).val < 1 := (y 0).isLt
  match a with
  | ⟨0, _⟩ => show win0_3.index t (0 : Fin 3) * 1 + 1 * (y 0).val = t.val; omega
  | ⟨1, _⟩ => show win0_3.index t (1 : Fin 3) * 1024 + 1 * (y 1).val = (y 1).val; omega
  | ⟨2, _⟩ => show win0_3.index t (2 : Fin 3) * 1024 + 1 * (y 2).val = (y 2).val; omega

/-- The marks, each widened to a 32-bit word: what the second result array of the region holds. -/
def nearWords (X Y : (⟨3, ![64, 1024, 256]⟩ : Shape).Idx → EReal) : (⟨3, ![64, 1024, 1024]⟩ : Shape).Idx → BitVec 32 :=
  fun i => (nearArr X Y i).setWidth 32

/-- What grid point t writes back to the first result array is slab t of the array of distances. -/
theorem flushed_dist (c : Dev nD) (t : Fin cfg0.N) :
    (dats m 0 c).flushed 2 t = ((cfg0.win 2).blk t).view.read (Elt Ideal) (distArr (V m c main_arg0) (V m c main_arg1)) := by
  show (cfg0.win 2).cut (grid0.coords t) ((dats m 0 c).after 2 t) = _
  rw [after0_2]
  unfold out0_2
  rw [View.canon_unit_zero hz]
  simp only [View.ld_unit_zero (S := S1x1024x256) hz]
  funext y
  show k0_pay3 (iblk m c 0 t) (iblk m c 1 t) y
    = distArr (V m c main_arg0) (V m c main_arg1) (((cfg0.win 2).blk t).view.emb y)
  refine ((out_dist_apply _ _ y).trans ?_).trans (congrArg (distArr (V m c main_arg0) (V m c main_arg1)) (emb_dist t y)).symm
  show distOf (rowsOf (iblk m c 0 t : Vec Ideal S1x1024x256 .f32) 0) (rowsOf (iblk m c 1 t : Vec Ideal S1x1024x256 .f32) 0) (y 1) (y 2)
    = distOf (rowsOf (V m c main_arg0) (batch t)) (rowsOf (V m c main_arg1) (batch t)) (y 1) (y 2)
  rw [iblk0_rows, iblk1_rows]

/-- What grid point t writes back to the second result array is slab t of the widened marks. -/
theorem flushed_near (c : Dev nD) (t : Fin cfg0.N) :
    (dats m 0 c).flushed 3 t = ((cfg0.win 3).blk t).view.read (Elt Ideal) (nearWords (V m c main_arg0) (V m c main_arg1)) := by
  show (cfg0.win 3).cut (grid0.coords t) ((dats m 0 c).after 3 t) = _
  rw [after0_3]
  unfold out0_3
  rw [View.canon_unit_zero hz]
  simp only [View.ld_unit_zero (S := S1x1024x256) hz]
  funext y
  show k0_pay1 (k0_pay4 (iblk m c 0 t) (iblk m c 1 t)) y
    = nearWords (V m c main_arg0) (V m c main_arg1) (((cfg0.win 3).blk t).view.emb y)
  refine ((out_near_apply _ _ y).trans ?_).trans (congrArg (nearWords (V m c main_arg0) (V m c main_arg1)) (emb_near t y)).symm
  show (nearOf (rowsOf (iblk m c 0 t : Vec Ideal S1x1024x256 .f32) 0) (rowsOf (iblk m c 1 t : Vec Ideal S1x1024x256 .f32) 0) (y 1) (y 2)).setWidth 32
    = (nearOf (rowsOf (V m c main_arg0) (batch t)) (rowsOf (V m c main_arg1) (batch t)) (y 1) (y 2)).setWidth 32
  rw [iblk0_rows, iblk1_rows]

/-- Entry (b, i, j) of the first result array lies in the slab grid point b writes back. -/
theorem cover_dist (i : S64x1024x1024.Idx) :
    ∃ t : Fin cfg0.N, (cfg0.win 2).flush t = true ∧ i ∈ ((cfg0.win 2).blk t).view.set := by
  refine ⟨(i 0).cast N_0.symm, flush0_2 _, ?_⟩
  show i ∈ ((View.whole main_v0_0).slice (win0_2.rect ((i 0).cast N_0.symm))).set
  rw [View.set_slice_whole, Rect.mem_set_unit]
  obtain ⟨-, -, -, -, -, -, e0, e1, e2, -⟩ := idx_facts ((i 0).cast N_0.symm)
  have h1 : (i 1).val < 1024 := (i 1).isLt
  have h2 : (i 2).val < 1024 := (i 2).isLt
  have hv : ((i 0).cast N_0.symm : Fin cfg0.N).val = (i 0).val := rfl
  intro a
  match a with
  | ⟨0, _⟩ =>
    show win0_2.index ((i 0).cast N_0.symm) (0 : Fin 3) * 1 ≤ (i 0).val ∧ (i 0).val < win0_2.index ((i 0).cast N_0.symm) (0 : Fin 3) * 1 + 1
    omega
  | ⟨1, _⟩ =>
    show win0_2.index ((i 0).cast N_0.symm) (1 : Fin 3) * 1024 ≤ (i 1).val ∧ (i 1).val < win0_2.index ((i 0).cast N_0.symm) (1 : Fin 3) * 1024 + 1024
    omega
  | ⟨2, _⟩ =>
    show win0_2.index ((i 0).cast N_0.symm) (2 : Fin 3) * 1024 ≤ (i 2).val ∧ (i 2).val < win0_2.index ((i 0).cast N_0.symm) (2 : Fin 3) * 1024 + 1024
    omega

/-- Entry (b, i, j) of the second result array lies in the slab grid point b writes back. -/
theorem cover_near (i : S64x1024x1024.Idx) :
    ∃ t : Fin cfg0.N, (cfg0.win 3).flush t = true ∧ i ∈ ((cfg0.win 3).blk t).view.set := by
  refine ⟨(i 0).cast N_0.symm, flush0_3 _, ?_⟩
  show i ∈ ((View.whole main_v0_1).slice (win0_3.rect ((i 0).cast N_0.symm))).set
  rw [View.set_slice_whole, Rect.mem_set_unit]
  obtain ⟨-, -, -, -, -, -, -, -, -, e0, e1, e2⟩ := idx_facts ((i 0).cast N_0.symm)
  have h1 : (i 1).val < 1024 := (i 1).isLt
  have h2 : (i 2).val < 1024 := (i 2).isLt
  have hv : ((i 0).cast N_0.symm : Fin cfg0.N).val = (i 0).val := rfl
  intro a
  match a with
  | ⟨0, _⟩ =>
    show win0_3.index ((i 0).cast N_0.symm) (0 : Fin 3) * 1 ≤ (i 0).val ∧ (i 0).val < win0_3.index ((i 0).cast N_0.symm) (0 : Fin 3) * 1 + 1
    omega
  | ⟨1, _⟩ =>
    show win0_3.index ((i 0).cast N_0.symm) (1 : Fin 3) * 1024 ≤ (i 1).val ∧ (i 1).val < win0_3.index ((i 0).cast N_0.symm) (1 : Fin 3) * 1024 + 1024
    omega
  | ⟨2, _⟩ =>
    show win0_3.index ((i 0).cast N_0.symm) (2 : Fin 3) * 1024 ≤ (i 2).val ∧ (i 2).val < win0_3.index ((i 0).cast N_0.symm) (2 : Fin 3) * 1024 + 1024
    omega

/-- After the region the first result array is the array of distances. -/
theorem final_dist (c : Dev nD) :
    (dats m 0 c).arrAt 2 cfg0.N = distArr (V m c main_arg0) (V m c main_arg1) :=
  (dats m 0 c).arrAt_eq_of_cover 2 (distArr (V m c main_arg0) (V m c main_arg1)) (fun t _ => flushed_dist m c t) cover_dist

/-- After the region the second result array is the array of widened marks. -/
theorem final_near (c : Dev nD) :
    (dats m 0 c).arrAt 3 cfg0.N = nearWords (V m c main_arg0) (V m c main_arg1) :=
  (dats m 0 c).arrAt_eq_of_cover 3 (nearWords (V m c main_arg0) (V m c main_arg1)) (fun t _ => flushed_near m c t) cover_near

end Cert.KernelIdeal.Arrays

end
-- ==== Proof.KernelRun.lean ====
/-
  The kernel program's two results.

  The region leaves the array of distances in its first result array and the marks, each widened to a 32-bit word, in
  its second. After the region the host compares each word with zero: a widened mark differs from zero exactly when
  the mark is one, so the program's second result is the array of marks itself. The arguments are left as they were.
-/
import proofs.«159108_j25847113187909_2_alg».proof.Proof.KernelArrays
import Idealize.ShloMosaic.Lib.StableHlo.Run

set_option maxRecDepth 16384

noncomputable section

namespace Cert.KernelIdeal.Run

open Cert.KernelIdeal Cert.KernelIdeal.Gen Cert.KernelIdeal.Arrays
open Idealize.ShloMosaic Idealize.ShloMosaic.TcCoe Idealize.SL.Sem Idealize.ShloMosaic.ValueIdx Cert.PairDist
open Idealize.ShloMosaic.Pipeline (Dat)

variable (m : (ℓ : Loc nD τ sig) → Buf (Elt Ideal) ℓ) (ρ : Dev nD → PrngReg)

/-- A one-bit mark widened to 32 bits differs from zero exactly when the mark is one. -/
theorem ne_zero_setWidth (b : BitVec 1) : IntOp.cmpi .ne (b.setWidth 32) 0#32 = b := by
  by_cases h : b = 1#1
  · subst h; decide
  · have := eq_zero_of_ne_one h; subst this; decide

/-- What the host lines after the region leave in the program's second result: the array of marks. -/
theorem tail_near (c : Dev nD) :
    Pipeline.afterTail₀ cfgs (dats m) 0 (V0 m) [hostOps1] c main_v3 = nearArr (V m c main_arg0) (V m c main_arg1) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v0_1)
      = nearWords (V m c main_arg0) (V m c main_arg1) :=
    (Pipeline.withArrays_arr spec0 launch0.win.arr_inj c _ _ 3).trans (final_near m c)
  rw [e]
  funext i
  show IntOp.cmpi .ne ((nearArr (V m c main_arg0) (V m c main_arg1) i).setWidth 32) 0#32 = _
  exact ne_zero_setWidth _

/-- The run, read: the first result is the array of distances between the arguments' points, the second the array of
    marks, and the arguments end unchanged. -/
theorem run : θ_run defs (onTc (τ := τ) (main (F := Ideal))) ⟨m, fun _ => 0, ρ⟩ fun r => ∀ c : Dev nD,
      r.2.mem ((c.tc : Thread nD τ).loc main_v0_0)
        = distArr (m ((c.tc : Thread nD τ).loc main_arg0)) (m ((c.tc : Thread nD τ).loc main_arg1))
      ∧ r.2.mem ((c.tc : Thread nD τ).loc main_v3)
        = nearArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final_dist m c),
      ((h c).2 main_v3 (Pipeline.mem_restRefs_of main_v3 (by decide) (by decide))).trans (tail_near m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.RefIsSpec.lean ====
/-
  The reference computes the distance array and the marks.

  Read at an entry (b, i, j), the reference's first result is the square root of |x i|² + |y j|² − 2 ⟨x i, y j⟩ floored
  at ε, over the points of batch b: the two squared norms are sums over the 256 coordinates kept under a unit axis and
  spread over the matrix, the inner products come from one contraction of the coordinate axis batch by batch, and each
  sum starts from a zero that leaves no trace. Its second result compares that entry with the batch's mean, the sum of
  the whole plane (b, ·, ·) divided by 2²⁰, which is the plane's double sum times 2⁻²⁰.
-/
import proofs.«159108_j25847113187909_2_alg».proof.Proof.Gen.ReferenceIdeal.Read
import proofs.«159108_j25847113187909_2_alg».proof.Proof.DistSpec
import proofs.«159108_j25847113187909_2_alg».proof.Proof.LibPlaneSum
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.PairDist

/-- The reference's first result is the array of distances. -/
theorem ref_dist (x0 x1 : (⟨S64x1024x256, .f32⟩ : BufTy).Contents (Elt Ideal)) :
    val_main_v15 (F := Ideal) x0 x1 = distArr x0 x1 := by
  funext i
  have hx : ∀ k, idx_main_v1 (idx_main_v2 (idx_main_v7 i)) k = (ix3 (i 0) (i 1) k : S64x1024x256.Idx) := fun k =>
    funext fun a => Fin.ext (by match a with | ⟨0, _⟩ => rfl | ⟨1, _⟩ => rfl | ⟨2, _⟩ => rfl)
  have hy : ∀ k, idx_main_v4 (idx_main_v5 (idx_main_v6 (idx_main_v8 i))) k = (ix3 (i 0) (i 2) k : S64x1024x256.Idx) := fun k =>
    funext fun a => Fin.ext (by match a with | ⟨0, _⟩ => rfl | ⟨1, _⟩ => rfl | ⟨2, _⟩ => rfl)
  have hl : ∀ k, lidx_main_v10 i k = (ix3 (i 0) (i 1) k : S64x1024x256.Idx) := fun k =>
    funext fun a => Fin.ext (by match a with | ⟨0, _⟩ => rfl | ⟨1, _⟩ => rfl | ⟨2, _⟩ => rfl)
  have hr : ∀ k, ridx_main_v10 i k = (ix3 (i 0) (i 2) k : S64x1024x256.Idx) := fun k =>
    funext fun a => Fin.ext (by match a with | ⟨0, _⟩ => rfl | ⟨1, _⟩ => rfl | ⟨2, _⟩ => rfl)
  rw [val_main_v15_apply, val_main_v14_apply, val_main_call0_v1_apply, val_main_call0_v0_apply, val_main_cst_2_apply,
    val_main_v13_apply, val_main_v9_apply, val_main_v7_apply, val_main_v2_apply, val_main_v1_apply, val_main_cst_apply,
    val_main_v8_apply, val_main_v6_apply, val_main_v5_apply, val_main_v4_apply, val_main_cst_0_apply,
    val_main_v12_apply, val_main_v11_apply, val_main_cst_1_apply, val_main_v10_apply]
  simp only [val_main_v0_apply, val_main_v3_apply, hx, hy, hl, hr, Ideal.hostUnary_sqrt_def, Ideal.maximumf_def,
    Ideal.subf_def, Ideal.addf_def, Ideal.mulf_def, Ideal.ofBits_def, Ideal.ofBits_zero_f32, zero_add]
  rfl

/-- The reference's second result is the array of marks. -/
theorem ref_near (x0 x1 : (⟨S64x1024x256, .f32⟩ : BufTy).Contents (Elt Ideal)) :
    val_main_v21 (F := Ideal) x0 x1 = nearArr x0 x1 := by
  funext i
  obtain ⟨b, p, q, rfl⟩ : ∃ (b : Fin 64) (p q : Fin 1024), i = ix3 b p q := ⟨i 0, i 1, i 2, eq_ix3 i⟩
  have h17 : idx_main_v17 (idx_main_v20 (ix3 b p q)) = (ix1 b : S64.Idx) :=
    funext fun a => Fin.ext (by match a with | ⟨0, _⟩ => rfl)
  rw [val_main_v21_apply, val_main_v20_apply, val_main_v19_apply, val_main_v17_apply, val_main_v18_apply,
    val_main_cst_4_apply, h17]
  unfold val_main_v16
  rw [ref_dist]
  simp only [Host.reduceAdd, Ideal.hostReduceAdd_def]
  rw [PlaneSum.hostReduceAdd_plane_apply]
  simp only [val_main_cst_3_apply, Ideal.hostDivf_def, Ideal.ofBits_def, Ideal.ofBits_zero_f32, zero_add, div_two_pow_20,
    Ideal.cmpf_def]
  rfl

end Cert.ReferenceIdeal.RefValue

end
-- ==== Proof.lean ====
/- Pairwise distances within each of 64 batches of points, their per-batch mean, and the pairs at most the mean apart:
   the kernel program and the reference compute the same two arrays on the extended reals.

   Both programs expand the squared distance between points x i and y j of a batch as |x i|² + |y j|² − 2 ⟨x i, y j⟩,
   floor it at the same constant ε and take the square root. The kernel does this one batch per grid point, the inner
   products by one matrix product into a zero accumulator; the reference does it for all batches at once by one
   contraction. They differ in how the mean is reached: the kernel adds each row of the 1024 × 1024 distance matrix
   and then the row totals, and multiplies by 2⁻²⁰; the reference adds the whole plane at once, starting from zero, and
   divides by 2²⁰. Addition on the extended reals is commutative and associative, so the two totals are the same double
   sum, and dividing by 2²⁰ is multiplying by 2⁻²⁰ at every extended real; no finiteness of the inputs is needed. The
   kernel stores each mark widened to a 32-bit word and its host lines compare the word with zero, which gives the
   mark back.

   The three frames come from the generated frame runs (the reference's from its generated run), the ideal pass
   rewrote nothing, and the value claim states both runs at the same two arrays (Proof/DistSpec.lean). -/
import proofs.«159108_j25847113187909_2_alg».proof.Defs
import proofs.«159108_j25847113187909_2_alg».proof.Proof.Gen.Kernel
import proofs.«159108_j25847113187909_2_alg».proof.Proof.Gen.Kernel.Skeleton
import proofs.«159108_j25847113187909_2_alg».proof.Proof.Gen.Kernel.Launch
import proofs.«159108_j25847113187909_2_alg».proof.Proof.Gen.Kernel.Points
import proofs.«159108_j25847113187909_2_alg».proof.Proof.Gen.Kernel.Frame
import proofs.«159108_j25847113187909_2_alg».proof.Proof.Gen.KernelIdeal
import proofs.«159108_j25847113187909_2_alg».proof.Proof.Gen.KernelIdeal.Skeleton
import proofs.«159108_j25847113187909_2_alg».proof.Proof.Gen.KernelIdeal.Launch
import proofs.«159108_j25847113187909_2_alg».proof.Proof.Gen.KernelIdeal.Points
import proofs.«159108_j25847113187909_2_alg».proof.Proof.Gen.KernelIdeal.Frame
import proofs.«159108_j25847113187909_2_alg».proof.Proof.Gen.ReferenceIdeal
import proofs.«159108_j25847113187909_2_alg».proof.Proof.Gen.Pre_finite_inputs
import proofs.«159108_j25847113187909_2_alg».proof.Proof.Gen.ReferenceIdeal.Run
import proofs.«159108_j25847113187909_2_alg».proof.Proof.Gen.ReferenceIdeal.Read
import Idealize.ShloMosaic.Adequacy
import Idealize.ShloMosaic.Init

import proofs.«159108_j25847113187909_2_alg».proof.Proof.KernelRun
import proofs.«159108_j25847113187909_2_alg».proof.Proof.RefIsSpec

noncomputable section

namespace Cert.Proof

open Idealize.ShloMosaic Idealize.ShloMosaic.TcCoe Idealize.SL.Sem Cert.PairDist

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation: the idealized kernel is the kernel's own text read on the extended reals. -/
theorem preserves : Cert.preserves_Kernel_KernelIdeal := trivial

/-- From memories agreeing on the two arrays of points, both programs end with the array of distances and the array
    of marks of those points. -/
theorem algebraic : Cert.algebraic_KernelIdeal_ReferenceIdeal := by
  intro m ρ m' ρ' _ hagree
  refine ⟨fun c => distArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => nearArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.ReferenceIdeal.RefValue.ref_dist, (hagree c).1, (hagree c).2]
  · rw [Cert.ReferenceIdeal.Read.val_main_v21_eq, Cert.ReferenceIdeal.RefValue.ref_near, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
